-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000x64 : Shape := ⟨2, ![800000, 64]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part2 {F : FTy → Type} [FloatOps F] (main_arg8 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg5 : FVec F S64x64 .f32) (main_arg6 : FVec F S64 .f32) (main_arg7 : FVec F S64x64 .f32) (main_arg8 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_v33

def fn {F : FTy → Type} [FloatOps F] (main_arg0 : FVec F S50000x64 .f32) (main_arg1 : IVec S2x800000 32) (main_arg2 : FVec F S800000x64 .f32) (main_arg3 : FVec F S128x64 .f32) (main_arg4 : FVec F S64 .f32) (main_arg5 : FVec F S64x64 .f32) (main_arg6 : FVec F S64 .f32) (main_arg7 : FVec F S64x64 .f32) (main_arg8 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x64 .f32 := Host.absf main_arg2
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_v13 main_v16
-- ==== Kernel.lean ====
abbrev S50000x64 : Shape := ⟨2, ![50000, 64]⟩
abbrev S2x800000 : Shape := ⟨2, ![2, 800000]⟩
abbrev S800000x64 : Shape := ⟨2, ![800000, 64]⟩
abbrev S128x64 : Shape := ⟨2, ![128, 64]⟩
abbrev S64 : Shape := ⟨1, ![64]⟩
abbrev S64x64 : Shape := ⟨2, ![64, 64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000 : Shape := ⟨1, ![50000]⟩
abbrev S50000x1 : Shape := ⟨2, ![50000, 1]⟩
abbrev S1x64 : Shape := ⟨2, ![1, 64]⟩
abbrev S5000x64 : Shape := ⟨2, ![5000, 64]⟩
abbrev S5000x1 : Shape := ⟨2, ![5000, 1]⟩

abbrev nBuf : Space → Nat
  | .hbm => 28
  | .vmem => 15
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000x64, .f32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S1x800000, .i32⟩
  | .hbm, ⟨10, _⟩ => ⟨S800000, .i32⟩
  | .hbm, ⟨11, _⟩ => ⟨S_, .f32⟩
  | .hbm, ⟨12, _⟩ => ⟨S50000x64, .f32⟩
  | .hbm, ⟨13, _⟩ => ⟨S800000x1, .i32⟩
  | .hbm, ⟨14, _⟩ => ⟨S50000x64, .f32⟩
  | .hbm, ⟨15, _⟩ => ⟨S_, .f32⟩
  | .hbm, ⟨16, _⟩ => ⟨S800000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S50000x1, .f32⟩
  | .hbm, ⟨22, _⟩ => ⟨S64x64, .f32⟩
  | .hbm, ⟨23, _⟩ => ⟨S64x64, .f32⟩
  | .hbm, ⟨24, _⟩ => ⟨S1x64, .f32⟩
  | .hbm, ⟨25, _⟩ => ⟨S1x64, .f32⟩
  | .hbm, ⟨26, _⟩ => ⟨S1x64, .f32⟩
  | .hbm, ⟨27, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S5000x1, .f32⟩
  | .local _ .vmem, ⟨3, _⟩ => ⟨S5000x1, .f32⟩
  | .local _ .vmem, ⟨4, _⟩ => ⟨S5000x64, .f32⟩
  | .local _ .vmem, ⟨5, _⟩ => ⟨S5000x64, .f32⟩
  | .local _ .vmem, ⟨6, _⟩ => ⟨S64x64, .f32⟩
  | .local _ .vmem, ⟨7, _⟩ => ⟨S64x64, .f32⟩
  | .local _ .vmem, ⟨8, _⟩ => ⟨S1x64, .f32⟩
  | .local _ .vmem, ⟨9, _⟩ => ⟨S64x64, .f32⟩
  | .local _ .vmem, ⟨10, _⟩ => ⟨S1x64, .f32⟩
  | .local _ .vmem, ⟨11, _⟩ => ⟨S64x64, .f32⟩
  | .local _ .vmem, ⟨12, _⟩ => ⟨S1x64, .f32⟩
  | .local _ .vmem, ⟨13, _⟩ => ⟨S5000x64, .f32⟩
  | .local _ .vmem, ⟨14, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S5000x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  slices_S2x800000_S1x800000_1_0 : S2x800000.Slices ![1, 0] S1x800000
  shapeCasts_S1x800000_S800000 : S1x800000.ShapeCasts S800000
  bcast_S_S50000x64 : S_.BroadcastsInDim S50000x64 (![] : Fin 0 → Fin S50000x64.rank)
  bcast_S800000_S800000x1_0 : S800000.BroadcastsInDim S800000x1 (![0] : Fin 1 → Fin S800000x1.rank)
  bcast_S_S800000 : S_.BroadcastsInDim S800000 (![] : Fin 0 → Fin S800000.rank)
  bcast_S_S50000 : S_.BroadcastsInDim S50000 (![] : Fin 0 → Fin S50000.rank)
  shapeCasts_S50000_S50000x1 : S50000.ShapeCasts S50000x1
  slices_S128x64_S64x64_0_0 : S128x64.Slices ![0, 0] S64x64
  slices_S128x64_S64x64_64_0 : S128x64.Slices ![64, 0] S64x64
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bitsLt_bf16_f32 : FTy.bits .bf16 < FTy.bits .f32
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x64.size a ≤ S64x64.size a
  hwx0_8 : ∀ i : grid0.Coords, EltTy.bits .f32 = 32 ∨ (Rect.block (s := S64x64) S64x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x64.size a ≤ S1x64.size a
  hwx0_9 : ∀ i : grid0.Coords, EltTy.bits .f32 = 32 ∨ (Rect.block (s := S1x64) S1x64.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S5000x64.size a ≤ S50000x64.size a
  hwx0_10 : ∀ i : grid0.Coords, EltTy.bits .f32 = 32 ∨ (Rect.block (s := S50000x64) S5000x64.size (cc0_transform_10 i) (hinb0_10 i)).WholeWords (EltTy.packing .f32)

variable [Facts₀]

def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v4) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v13) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S64x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v14) S1x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v15) S5000x64.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000x64 : Shape := ⟨2, ![800000, 64]⟩
abbrev S128x64 : Shape := ⟨2, ![128, 64]⟩
abbrev S64 : Shape := ⟨1, ![64]⟩
abbrev S64x64 : Shape := ⟨2, ![64, 64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000 : Shape := ⟨1, ![50000]⟩
abbrev S50000x1 : Shape := ⟨2, ![50000, 1]⟩
abbrev S50000x128 : Shape := ⟨2, ![50000, 128]⟩
abbrev S1x64 : Shape := ⟨2, ![1, 64]⟩

abbrev nBuf : Space → Nat
  | .hbm => 46
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000x64, .f32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S1x800000, .i32⟩
  | .hbm, ⟨10, _⟩ => ⟨S800000, .i32⟩
  | .hbm, ⟨11, _⟩ => ⟨S_, .f32⟩
  | .hbm, ⟨12, _⟩ => ⟨S50000x64, .f32⟩
  | .hbm, ⟨13, _⟩ => ⟨S800000x1, .i32⟩
  | .hbm, ⟨14, _⟩ => ⟨S50000x64, .f32⟩
  | .hbm, ⟨15, _⟩ => ⟨S_, .f32⟩
  | .hbm, ⟨16, _⟩ => ⟨S800000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S50000x64, .f32⟩
  | .hbm, ⟨26, _⟩ => ⟨S50000x64, .f32⟩
  | .hbm, ⟨27, _⟩ => ⟨S50000x128, .f32⟩
  | .hbm, ⟨28, _⟩ => ⟨S50000x64, .f32⟩
  | .hbm, ⟨29, _⟩ => ⟨S1x64, .f32⟩
  | .hbm, ⟨30, _⟩ => ⟨S50000x64, .f32⟩
  | .hbm, ⟨31, _⟩ => ⟨S50000x64, .f32⟩
  | .hbm, ⟨32, _⟩ => ⟨S_, .f32⟩
  | .hbm, ⟨33, _⟩ => ⟨S50000x64, .f32⟩
  | .hbm, ⟨34, _⟩ => ⟨S50000x64, .f32⟩
  | .hbm, ⟨35, _⟩ => ⟨S50000x64, .f32⟩
  | .hbm, ⟨36, _⟩ => ⟨S1x64, .f32⟩
  | .hbm, ⟨37, _⟩ => ⟨S50000x64, .f32⟩
  | .hbm, ⟨38, _⟩ => ⟨S50000x64, .f32⟩
  | .hbm, ⟨39, _⟩ => ⟨S_, .f32⟩
  | .hbm, ⟨40, _⟩ => ⟨S50000x64, .f32⟩
  | .hbm, ⟨41, _⟩ => ⟨S50000x64, .f32⟩
  | .hbm, ⟨42, _⟩ => ⟨S50000x64, .f32⟩
  | .hbm, ⟨43, _⟩ => ⟨S1x64, .f32⟩
  | .hbm, ⟨44, _⟩ => ⟨S50000x64, .f32⟩
  | .hbm, ⟨45, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_call0_cst : Ref sig .tc := ⟨.hbm, 32, rfl⟩
abbrev main_call0_v0 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_call1_cst : Ref sig .tc := ⟨.hbm, 39, rfl⟩
abbrev main_call1_v0 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩

abbrev nD : Nat := 1
abbrev τ : Topo := Topo.v7x

variable {F : FTy → Type} [FloatOps F]

class Facts₀ : Prop where
  slices_S2x800000_S1x800000_1_0 : S2x800000.Slices ![1, 0] S1x800000
  shapeCasts_S1x800000_S800000 : S1x800000.ShapeCasts S800000
  bcast_S_S50000x64 : S_.BroadcastsInDim S50000x64 (![] : Fin 0 → Fin S50000x64.rank)
  bcast_S800000_S800000x1_0 : S800000.BroadcastsInDim S800000x1 (![0] : Fin 1 → Fin S800000x1.rank)
  bcast_S_S800000 : S_.BroadcastsInDim S800000 (![] : Fin 0 → Fin S800000.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  concatenates_S50000x64_S50000x64_S50000x128_d1 : Shape.Concatenates [S50000x64, S50000x64] S50000x128 1
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S50000x128_S128x64_S50000x64_1_0_0_1_n_n_wf : DotDims.WF S50000x128 S128x64 S50000x64 [1] [0] [0] [1] [] []
  dot_S50000x64_S64x64_S50000x64_1_0_0_1_n_n_wf : DotDims.WF S50000x64 S64x64 S50000x64 [1] [0] [0] [1] [] []

variable [Facts₀]

def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.RowMlp.lean ====
/-
  The mathematics both programs compute, for ONE node.

  A node has a row `s` of 64 summed edge features, an edge count `c`, and a row `x` of 64 node features.  Its mean
  edge feature is `s k / max c 1` (a node with no edge keeps `s k / 1`).  Three dense layers follow: the first reads
  the mean row and the node's own row through the two halves `Wa`, `Wb` of one 128 × 64 weight matrix, each of the
  first two layers is followed by `max · 0`, the last is not.  Every node's output row depends on that node's rows
  alone: the whole [50000, 64] result is this function applied row by row, and a block of 5000 rows of it is the same
  function applied to the block's rows.

  The one law that joins the two programs is `sum_halves`: a sum over 128 terms is the sum over the first 64 plus the
  sum over the last 64.  It holds in any commutative monoid, so on the extended reals it needs no finiteness.
-/
import Idealize.ShloMosaic.PureOps.Ideal
import Idealize.ShloMosaic.Lib.ValueIdx
import Mathlib.Algebra.BigOperators.Fin

noncomputable section

namespace Cert.RowMlp

open Idealize.ShloMosaic Idealize.ShloMosaic.ValueIdx

/-- The float word of `0.0` and of `1.0`, read as extended reals (never evaluated: both programs carry the same words). -/
abbrev zero : EReal := Ideal.ofBits .f32 0x00000000#32
abbrev one : EReal := Ideal.ofBits .f32 0x3F800000#32

/-- The mean edge feature of a node: its summed row over its edge count, the count raised to at least one. -/
def mean (s : Fin 64 → EReal) (c : EReal) (k : Fin 64) : EReal := Ideal.div (s k) (max c one)

/-- A dense layer at output feature `j`: the row times column `j` of the weights, plus the bias. -/
def dense (x : Fin 64 → EReal) (W : Fin 64 → Fin 64 → EReal) (b : Fin 64 → EReal) (j : Fin 64) : EReal :=
  (∑ k : Fin 64, x k * W k j) + b j

/-- The first layer at output feature `j`, its 128 inputs given as two rows of 64 with their halves of the weights. -/
def first (a x : Fin 64 → EReal) (Wa Wb : Fin 64 → Fin 64 → EReal) (b : Fin 64 → EReal) (j : Fin 64) : EReal :=
  ((∑ k : Fin 64, a k * Wa k j) + ∑ k : Fin 64, x k * Wb k j) + b j

/-- A node's output at feature `j`. -/
def row (s : Fin 64 → EReal) (c : EReal) (x : Fin 64 → EReal) (Wa Wb W1 W2 : Fin 64 → Fin 64 → EReal)
    (b0 b1 b2 : Fin 64 → EReal) (j : Fin 64) : EReal :=
  dense (fun l => max (dense (fun k => max (first (mean s c) x Wa Wb b0 k) zero) W1 b1 l) zero) W2 b2 j

/-- The node function of equal rows, weights and feature is equal. -/
theorem row_congr {s s' : Fin 64 → EReal} {c c' : EReal} {x x' : Fin 64 → EReal} {Wa Wa' Wb Wb' W1 W1' W2 W2' : Fin 64 → Fin 64 → EReal}
    {b0 b0' b1 b1' b2 b2' : Fin 64 → EReal} {j j' : Fin 64} (hs : s = s') (hc : c = c') (hx : x = x') (hWa : Wa = Wa') (hWb : Wb = Wb')
    (hW1 : W1 = W1') (hW2 : W2 = W2') (hb0 : b0 = b0') (hb1 : b1 = b1') (hb2 : b2 = b2') (hj : j = j') :
    row s c x Wa Wb W1 W2 b0 b1 b2 j = row s' c' x' Wa' Wb' W1' W2' b0' b1' b2' j' := by
  subst hs hc hx hWa hWb hW1 hW2 hb0 hb1 hb2 hj; rfl

/-- The whole network at node `r`, output feature `j`: the node function of row `r` of the summed edge features
    [50000, 64], entry `r` of the edge counts [50000], row `r` of the node features [50000, 64], the two halves (rows 0–63
    and rows 64–127) of the first weight matrix [128, 64], the other two weight matrices [64, 64] and the three biases [64]. -/
def net (sums : (⟨2, ![50000, 64]⟩ : Shape).Idx → EReal) (counts : (⟨1, ![50000]⟩ : Shape).Idx → EReal)
    (v : (⟨2, ![50000, 64]⟩ : Shape).Idx → EReal) (W0 : (⟨2, ![128, 64]⟩ : Shape).Idx → EReal) (b0 : (⟨1, ![64]⟩ : Shape).Idx → EReal)
    (W1 : (⟨2, ![64, 64]⟩ : Shape).Idx → EReal) (b1 : (⟨1, ![64]⟩ : Shape).Idx → EReal)
    (W2 : (⟨2, ![64, 64]⟩ : Shape).Idx → EReal) (b2 : (⟨1, ![64]⟩ : Shape).Idx → EReal) (r : Fin 50000) (j : Fin 64) : EReal :=
  row (fun k => sums (ix2 r k)) (counts (ix1 r)) (fun k => v (ix2 r k))
    (fun k l => W0 (ix2 (⟨k.val, by have := k.isLt; omega⟩ : Fin 128) l))
    (fun k l => W0 (ix2 (⟨64 + k.val, by have := k.isLt; omega⟩ : Fin 128) l))
    (fun k l => W1 (ix2 k l)) (fun k l => W2 (ix2 k l)) (fun l => b0 (ix1 l)) (fun l => b1 (ix1 l)) (fun l => b2 (ix1 l)) j

/-- A sum over 128 terms is the sum over the first 64 plus the sum over the last 64. -/
theorem sum_halves {M : Type*} [AddCommMonoid M] (f : Fin 128 → M) :
    ∑ k : Fin 128, f k
      = (∑ k : Fin 64, f ⟨k.val, by have := k.isLt; omega⟩) + ∑ k : Fin 64, f ⟨64 + k.val, by have := k.isLt; omega⟩ :=
  Fin.sum_univ_add (a := 64) (b := 64) f

end Cert.RowMlp

end
-- ==== Proof.BlockRows.lean ====
/-
  What one grid point's body computes, read at an entry of its 5000 × 64 output block.

  The body divides the block of summed edge features by the block's column of edge counts (raised to at least one),
  multiplies the result and the block of node features by the two halves of the first weight matrix, adds the two
  products and the bias row, clamps at zero, and applies two more dense layers, the first of them clamped at zero.
  Every matrix product contracts one axis of length 64, so at entry `(p, q)` it is the sum over `k` of row `p` at `k`
  times column `q` at `k`; a bias row of shape [1, 64] spread down the block reads its entry `(0, q)`, the count
  column of shape [5000, 1] spread across the block reads its entry `(p, 0)`; a change of float format is the identity
  on extended reals.  Hence entry `(p, q)` of the body's result is the node function `RowMlp.row` of row `p` of the
  three row blocks and of the weights: `block_row`.
-/
import proofs.«112078_j20358144983598_2_alg».proof.Proof.Gen.KernelIdeal.Skeleton
import proofs.«112078_j20358144983598_2_alg».proof.Proof.RowMlp
import Idealize.ShloMosaic.Lib.ValueIdx
import Idealize.ShloMosaic.Lib.Pipeline.Value
import Idealize.ShloMosaic.PureOps.Ideal.Laws

noncomputable section

namespace Cert.KernelIdeal.BlockRows

open Cert.KernelIdeal Cert.KernelIdeal.Gen Idealize.ShloMosaic Idealize.ShloMosaic.ValueIdx Cert.RowMlp

/-- The dimension numbers of the body's four matrix products: [5000, 64] × [64, 64], contracting axis 1 with axis 0. -/
abbrev D := dot_S5000x64_S64x64_S5000x64_1_0_0_1_n_n

/-! ## The operand indices of a product entry, coordinate by coordinate -/

theorem lhs_row (i : S5000x64.Idx) (κ : D.contr.Idx) : (D.lhsIdx i κ 0).val = (i 0).val := by
  unfold DotDims.lhsIdx
  rw [dif_neg (show ¬(0 : Fin S5000x64.rank) ∈ D.lhsBatch by decide), dif_pos (show (0 : Fin S5000x64.rank) ∈ D.lhsNonContracting by decide)]
  rfl

theorem lhs_col (i : S5000x64.Idx) (κ : D.contr.Idx) : (D.lhsIdx i κ 1).val = (κ ⟨0, by decide⟩).val :=
  D.lhsIdx_val_of_single rfl i κ

theorem rhs_row (i : S5000x64.Idx) (κ : D.contr.Idx) : (D.rhsIdx i κ 0).val = (κ ⟨0, by decide⟩).val :=
  D.rhsIdx_val_of_single rfl i κ

theorem rhs_col (i : S5000x64.Idx) (κ : D.contr.Idx) : (D.rhsIdx i κ 1).val = (i 1).val := by
  unfold DotDims.rhsIdx
  rw [dif_neg (show ¬(1 : Fin S64x64.rank) ∈ D.rhsBatch by decide), dif_pos (show (1 : Fin S64x64.rank) ∈ D.rhsNonContracting by decide)]
  rfl

/-- A matrix product into a zero accumulator, at entry `(p, q)`: row `p` of the left operand against column `q` of the
    right one. -/
theorem product_at (A : FVec Ideal S5000x64 .bf16) (B : FVec Ideal S64x64 .bf16) (p : Fin 5000) (q : Fin 64) :
    matmul D none A B (constant (F := Ideal) S5000x64 .f32 0x00000000#32) (ix2 p q) = ∑ k : Fin 64, A (ix2 p k) * B (ix2 k q) := by
  refine (Ideal.matmul_constant_zero_apply D none A B (ix2 p q)).trans ?_
  rw [← Equiv.sum_comp (contrEquiv1 D 64 rfl rfl).symm]
  refine Finset.sum_congr rfl fun k _ => ?_
  have hk := contrEquiv1_symm_val D 64 rfl rfl k
  have el : D.lhsIdx (ix2 p q) ((contrEquiv1 D 64 rfl rfl).symm k) = ix2 p k := funext fun a => Fin.ext (by
    match a with
    | ⟨0, _⟩ => exact lhs_row _ _
    | ⟨1, _⟩ => exact (lhs_col _ _).trans hk)
  have er : D.rhsIdx (ix2 p q) ((contrEquiv1 D 64 rfl rfl).symm k) = ix2 k q := funext fun a => Fin.ext (by
    match a with
    | ⟨0, _⟩ => exact (rhs_row _ _).trans hk
    | ⟨1, _⟩ => exact rhs_col _ _)
  rw [el, er]

/-! ## The two spreads -/

/-- A [1, 64] row spread down the block reads its entry in the same column. -/
theorem spread_row_at (b : FVec Ideal S1x64 .f32) (p : Fin 5000) (q : Fin 64) :
    broadcastTo S5000x64 b Facts₀.broadcasts_S1x64_S5000x64 (ix2 p q) = b (ix2 0 q) :=
  broadcastTo_apply b Facts₀.broadcasts_S1x64_S5000x64 (ix2 p q) (ix2 0 q) fun a => match a with
    | ⟨0, _⟩ => by show (0 : Nat) = if (1 : Nat) = 1 then 0 else p.val; rw [if_pos rfl]
    | ⟨1, _⟩ => by show q.val = if (64 : Nat) = 1 then 0 else q.val; rw [if_neg (by decide)]

/-- A [5000, 1] column spread across the block reads its entry in the same row. -/
theorem spread_column_at (x : FVec Ideal S5000x1 .f32) (p : Fin 5000) (q : Fin 64) :
    broadcastTo S5000x64 x Facts₀.broadcasts_S5000x1_S5000x64 (ix2 p q) = x (ix2 p 0) :=
  broadcastTo_apply x Facts₀.broadcasts_S5000x1_S5000x64 (ix2 p q) (ix2 p 0) fun a => match a with
    | ⟨0, _⟩ => by show p.val = if (5000 : Nat) = 1 then 0 else p.val; rw [if_neg (by decide)]
    | ⟨1, _⟩ => by show (0 : Nat) = if (1 : Nat) = 1 then 0 else q.val; rw [if_pos rfl]

/-! ## The body's stages at an entry -/

/-- The mean edge features of the block's nodes. -/
theorem mean_at (x0 : FVec Ideal S5000x64 .f32) (x1 : FVec Ideal S5000x1 .f32) (p : Fin 5000) (k : Fin 64) :
    divf (shapeCast S5000x64 x0 Facts₀.shapeCasts_S5000x64_S5000x64)
        (broadcastTo S5000x64 (maximumf (shapeCast S5000x1 x1 Facts₀.shapeCasts_S5000x1_S5000x1)
          (broadcast S5000x1 (Scalar.ofBits (F := Ideal) .f32 0x3F800000#32))) Facts₀.broadcasts_S5000x1_S5000x64) (ix2 p k)
      = mean (fun k => x0 (ix2 p k)) (x1 (ix2 p 0)) k := by
  rw [shapeCast_self, shapeCast_self]
  show Ideal.div (x0 (ix2 p k)) (broadcastTo S5000x64 (maximumf x1 (broadcast S5000x1 (Scalar.ofBits (F := Ideal) .f32 0x3F800000#32))) Facts₀.broadcasts_S5000x1_S5000x64 (ix2 p k)) = _
  rw [spread_column_at]
  rfl

/-- A dense layer of the block: the rows times the weights plus the bias row. -/
theorem dense_at (X : FVec Ideal S5000x64 .f32) (W : FVec Ideal S64x64 .f32) (b : FVec Ideal S1x64 .f32) (p : Fin 5000) (q : Fin 64) :
    addf (matmul D none (truncf .bf16 X Facts₀.bitsLt_bf16_f32) (truncf .bf16 W Facts₀.bitsLt_bf16_f32) (constant (F := Ideal) S5000x64 .f32 0x00000000#32))
        (broadcastTo S5000x64 (shapeCast S1x64 b Facts₀.shapeCasts_S1x64_S1x64) Facts₀.broadcasts_S1x64_S5000x64) (ix2 p q)
      = dense (fun k => X (ix2 p k)) (fun k l => W (ix2 k l)) (fun l => b (ix2 0 l)) q := by
  rw [shapeCast_self]
  show matmul D none (truncf .bf16 X Facts₀.bitsLt_bf16_f32) (truncf .bf16 W Facts₀.bitsLt_bf16_f32) (constant (F := Ideal) S5000x64 .f32 0x00000000#32) (ix2 p q)
      + broadcastTo S5000x64 b Facts₀.broadcasts_S1x64_S5000x64 (ix2 p q) = _
  rw [product_at, spread_row_at]
  rfl

/-- The first layer of the block: the mean rows and the node rows, each times its half of the weights, plus the bias row. -/
theorem first_at (A X : FVec Ideal S5000x64 .f32) (Wa Wb : FVec Ideal S64x64 .f32) (b : FVec Ideal S1x64 .f32) (p : Fin 5000) (q : Fin 64) :
    addf (addf (matmul D none (truncf .bf16 A Facts₀.bitsLt_bf16_f32) (truncf .bf16 (shapeCast S64x64 Wa Facts₀.shapeCasts_S64x64_S64x64) Facts₀.bitsLt_bf16_f32) (constant (F := Ideal) S5000x64 .f32 0x00000000#32))
          (matmul D none (truncf .bf16 X Facts₀.bitsLt_bf16_f32) (truncf .bf16 (shapeCast S64x64 Wb Facts₀.shapeCasts_S64x64_S64x64) Facts₀.bitsLt_bf16_f32) (constant (F := Ideal) S5000x64 .f32 0x00000000#32)))
        (broadcastTo S5000x64 (shapeCast S1x64 b Facts₀.shapeCasts_S1x64_S1x64) Facts₀.broadcasts_S1x64_S5000x64) (ix2 p q)
      = first (fun k => A (ix2 p k)) (fun k => X (ix2 p k)) (fun k l => Wa (ix2 k l)) (fun k l => Wb (ix2 k l)) (fun l => b (ix2 0 l)) q := by
  rw [shapeCast_self, shapeCast_self, shapeCast_self]
  show (matmul D none (truncf .bf16 A Facts₀.bitsLt_bf16_f32) (truncf .bf16 Wa Facts₀.bitsLt_bf16_f32) (constant (F := Ideal) S5000x64 .f32 0x00000000#32) (ix2 p q)
        + matmul D none (truncf .bf16 X Facts₀.bitsLt_bf16_f32) (truncf .bf16 Wb Facts₀.bitsLt_bf16_f32) (constant (F := Ideal) S5000x64 .f32 0x00000000#32) (ix2 p q))
      + broadcastTo S5000x64 b Facts₀.broadcasts_S1x64_S5000x64 (ix2 p q) = _
  rw [product_at, product_at, spread_row_at]
  rfl

/-! ## The body's result at an entry -/

/-- Entry `(p, q)` of what the body stores is the node function of row `p` of its three row blocks and of its weights. -/
theorem block_row (x0 : FVec Ideal S5000x64 .f32) (x1 : FVec Ideal S5000x1 .f32) (x2 : FVec Ideal S5000x64 .f32)
    (x3 x4 x6 x8 : FVec Ideal S64x64 .f32) (x5 x7 x9 : FVec Ideal S1x64 .f32) (p : Fin 5000) (q : Fin 64) :
    k0_pay1 (F := Ideal) (k0_pay2 x8) (k0_pay3 x0 x1 x2 x3 x4 x6 x5 x7) x9 (ix2 p q)
      = row (fun k => x0 (ix2 p k)) (x1 (ix2 p 0)) (fun k => x2 (ix2 p k)) (fun k l => x3 (ix2 k l)) (fun k l => x4 (ix2 k l))
          (fun k l => x6 (ix2 k l)) (fun k l => x8 (ix2 k l)) (fun l => x5 (ix2 0 l)) (fun l => x7 (ix2 0 l)) (fun l => x9 (ix2 0 l)) q := by
  unfold k0_pay1 k0_pay2 k0_pay3 row
  dsimp only
  refine (dense_at _ x8 x9 p q).trans ?_
  refine congrArg (fun f => dense f (fun k l => x8 (ix2 k l)) (fun l => x9 (ix2 0 l)) q) (funext fun l => ?_)
  refine congrArg (max · zero) ?_
  refine (dense_at _ x6 x7 p l).trans ?_
  refine congrArg (fun f => dense f (fun k l => x6 (ix2 k l)) (fun l => x7 (ix2 0 l)) l) (funext fun k => ?_)
  refine congrArg (max · zero) ?_
  refine (first_at _ x2 x3 x4 x5 p k).trans ?_
  refine congrArg (fun f => first f (fun k => x2 (ix2 p k)) (fun k l => x3 (ix2 k l)) (fun k l => x4 (ix2 k l)) (fun l => x5 (ix2 0 l)) k) (funext fun j => ?_)
  exact mean_at x0 x1 p j

end Cert.KernelIdeal.BlockRows

end
-- ==== Proof.KernelHost.lean ====
/-
  What the region finds in the arrays the host operations prepare for it.

  Before the region the host sums the edge features and the edge ones by receiving node (two scatter-adds into zeros,
  left unopened here: `sums`, `counts`), lays the counts out as a [50000, 1] column, cuts the first weight matrix
  [128, 64] into its rows 0–63 and its rows 64–127, and lays each bias [64] out as a [1, 64] row.  Read at an entry: the
  column at `(r, 0)` is the count of node `r`; the two cuts at `(k, l)` are the matrix at `(k, l)` and at `(64 + k, l)`; a bias
  row at `(0, l)` is the bias at `l`.
-/
import proofs.«112078_j20358144983598_2_alg».proof.Proof.Gen.KernelIdeal.Frame
import Idealize.ShloMosaic.Lib.ValueIdx
import Idealize.ShloMosaic.Lib.Pipeline.Value
import Idealize.ShloMosaic.Lib.StableHlo.Run

noncomputable section

namespace Cert.KernelIdeal.Host

open Cert.KernelIdeal Cert.KernelIdeal.Gen Idealize.ShloMosaic Idealize.ShloMosaic.TcCoe Idealize.SL.Sem Idealize.ShloMosaic.StableHlo
open Idealize.ShloMosaic.ValueIdx

/-- The receiving node of every edge, as the scatter-adds take it: row 1 of the edge index, as a column. -/
def receivers (x1 : (⟨S2x800000, .i32⟩ : BufTy).Contents (Elt Ideal)) : (⟨S800000x1, .i32⟩ : BufTy).Contents (Elt Ideal) :=
  broadcastInDim S800000x1 ![0] Facts₀.bcast_S800000_S800000x1_0
    (shapeCast _ (extractStridedSlice S1x800000 ![1, 0] x1 Facts₀.slices_S2x800000_S1x800000_1_0) Facts₀.shapeCasts_S1x800000_S800000)

/-- The edge features summed by receiving node. -/
def sums (x1 : (⟨S2x800000, .i32⟩ : BufTy).Contents (Elt Ideal)) (x2 : (⟨S800000x64, .f32⟩ : BufTy).Contents (Elt Ideal)) :
    (⟨S50000x64, .f32⟩ : BufTy).Contents (Elt Ideal) :=
  Host.scatterAdd (F := Ideal) scatter_S50000x64_S800000x1_S800000x64_1_0_0_1
    (broadcastInDim S50000x64 ![] Facts₀.bcast_S_S50000x64 (constant (F := Ideal) S_ .f32 0x00000000#32)) (receivers x1) x2

/-- The number of edges each node receives: ones summed by receiving node. -/
def counts (x1 : (⟨S2x800000, .i32⟩ : BufTy).Contents (Elt Ideal)) : (⟨S50000, .f32⟩ : BufTy).Contents (Elt Ideal) :=
  Host.scatterAdd (F := Ideal) scatter_S50000_S800000x1_S800000_n_0_0_1
    (broadcastInDim S50000 ![] Facts₀.bcast_S_S50000 (constant (F := Ideal) S_ .f32 0x00000000#32)) (receivers x1)
    (broadcastInDim S800000 ![] Facts₀.bcast_S_S800000 (constant (F := Ideal) S_ .f32 0x3F800000#32))

variable (m : (ℓ : Loc nD τ sig) → Buf (Elt Ideal) ℓ)

/-- The region finds the summed edge features in its window 0's array. -/
theorem found_sums (c : Dev nD) :
    (V m c main_v4 : S50000x64.Idx → EReal) = sums (m ((c : Thread nD τ).loc main_arg1)) (m ((c : Thread nD τ).loc main_arg2)) := by
  dsimp only [V, hostOps0]; after_results <;> rfl

/-- The region finds the edge counts, as a column, in its window 1's array. -/
theorem found_counts (c : Dev nD) :
    (V m c main_v9 : S50000x1.Idx → EReal)
      = shapeCast S50000x1 (counts (m ((c : Thread nD τ).loc main_arg1))) Facts₀.shapeCasts_S50000_S50000x1 := by
  dsimp only [V, hostOps0]; after_results <;> rfl

/-- The count column at `(r, 0)` is the count of node `r`. -/
theorem found_counts_at (c : Dev nD) (r : Fin 50000) :
    (V m c main_v9 : S50000x1.Idx → EReal) (ix2 r 0) = counts (m ((c : Thread nD τ).loc main_arg1)) (ix1 r) := by
  rw [found_counts]
  exact shapeCast_apply _ Facts₀.shapeCasts_S50000_S50000x1 (ix2 r 0) (ix1 r)
    (by rewrite [Shape.rowMajor_val_two, Shape.rowMajor_val_one]; show r.val = r.val * 1 + 0; omega)

/-- Window 3's array is rows 0–63 of the first weight matrix. -/
theorem found_upper_at (c : Dev nD) (k l : Fin 64) :
    (V m c main_v10 : S64x64.Idx → EReal) (ix2 k l)
      = (m ((c : Thread nD τ).loc main_arg3) : S128x64.Idx → EReal) (ix2 (⟨k.val, by have := k.isLt; omega⟩ : Fin 128) l) := by
  have e : (V m c main_v10 : S64x64.Idx → EReal)
      = extractStridedSlice S64x64 ![0, 0] (m ((c : Thread nD τ).loc main_arg3)) Facts₀.slices_S128x64_S64x64_0_0 := by
    dsimp only [V, hostOps0]; after_results <;> rfl
  rw [e]
  exact extractStridedSlice_apply (s := S128x64) (t := S64x64) ![0, 0] (m ((c : Thread nD τ).loc main_arg3)) Facts₀.slices_S128x64_S64x64_0_0 (ix2 k l)
    (ix2 (⟨k.val, by have := k.isLt; omega⟩ : Fin 128) l) fun a => match a with
    | ⟨0, _⟩ => by show k.val = 0 + k.val; omega
    | ⟨1, _⟩ => by show l.val = 0 + l.val; omega

/-- Window 4's array is rows 64–127 of the first weight matrix. -/
theorem found_lower_at (c : Dev nD) (k l : Fin 64) :
    (V m c main_v11 : S64x64.Idx → EReal) (ix2 k l)
      = (m ((c : Thread nD τ).loc main_arg3) : S128x64.Idx → EReal) (ix2 (⟨64 + k.val, by have := k.isLt; omega⟩ : Fin 128) l) := by
  have e : (V m c main_v11 : S64x64.Idx → EReal)
      = extractStridedSlice S64x64 ![64, 0] (m ((c : Thread nD τ).loc main_arg3)) Facts₀.slices_S128x64_S64x64_64_0 := by
    dsimp only [V, hostOps0]; after_results <;> rfl
  rw [e]
  exact extractStridedSlice_apply (s := S128x64) (t := S64x64) ![64, 0] (m ((c : Thread nD τ).loc main_arg3)) Facts₀.slices_S128x64_S64x64_64_0 (ix2 k l)
    (ix2 (⟨64 + k.val, by have := k.isLt; omega⟩ : Fin 128) l) fun a => match a with
    | ⟨0, _⟩ => by show 64 + k.val = 64 + k.val; omega
    | ⟨1, _⟩ => by show l.val = 0 + l.val; omega

/-- A [64] vector laid out as a [1, 64] row, at `(0, l)`, is the vector at `l`. -/
theorem row_of_vector_at (b : S64.Idx → EReal) (l : Fin 64) :
    shapeCast S1x64 b Facts₀.shapeCasts_S64_S1x64 (ix2 0 l) = b (ix1 l) :=
  shapeCast_apply b Facts₀.shapeCasts_S64_S1x64 (ix2 0 l) (ix1 l)
    (by rewrite [Shape.rowMajor_val_two, Shape.rowMajor_val_one]; show l.val = 0 * 64 + l.val; omega)

/-- Windows 5, 7 and 9's arrays are the three biases as rows. -/
theorem found_bias0_at (c : Dev nD) (l : Fin 64) :
    (V m c main_v12 : S1x64.Idx → EReal) (ix2 0 l) = (m ((c : Thread nD τ).loc main_arg4) : S64.Idx → EReal) (ix1 l) := by
  have e : (V m c main_v12 : S1x64.Idx → EReal) = shapeCast S1x64 (m ((c : Thread nD τ).loc main_arg4)) Facts₀.shapeCasts_S64_S1x64 := by
    dsimp only [V, hostOps0]; after_results <;> rfl
  rw [e]; exact row_of_vector_at _ l

theorem found_bias1_at (c : Dev nD) (l : Fin 64) :
    (V m c main_v13 : S1x64.Idx → EReal) (ix2 0 l) = (m ((c : Thread nD τ).loc main_arg6) : S64.Idx → EReal) (ix1 l) := by
  have e : (V m c main_v13 : S1x64.Idx → EReal) = shapeCast S1x64 (m ((c : Thread nD τ).loc main_arg6)) Facts₀.shapeCasts_S64_S1x64 := by
    dsimp only [V, hostOps0]; after_results <;> rfl
  rw [e]; exact row_of_vector_at _ l

theorem found_bias2_at (c : Dev nD) (l : Fin 64) :
    (V m c main_v14 : S1x64.Idx → EReal) (ix2 0 l) = (m ((c : Thread nD τ).loc main_arg8) : S64.Idx → EReal) (ix1 l) := by
  have e : (V m c main_v14 : S1x64.Idx → EReal) = shapeCast S1x64 (m ((c : Thread nD τ).loc main_arg8)) Facts₀.shapeCasts_S64_S1x64 := by
    dsimp only [V, hostOps0]; after_results <;> rfl
  rw [e]; exact row_of_vector_at _ l

end Cert.KernelIdeal.Host

end
-- ==== Proof.BlockReads.lean ====
/-
  Each window's block at a grid point, read off the window's array.

  The grid has ten points; point `t` handles nodes `5000 t … 5000 t + 4999`.  The blocks of the summed edge
  features, of the count column and of the node features at point `t` are rows `5000 t + p` of those arrays; the
  windows of the weights and of the bias rows are their whole arrays at every point.  A block's entry sits in the
  array, on each axis, at the block's index times the block's extent plus the entry's own coordinate, and the block
  indices are decided once over the ten points.  Each fact is first stated for an arbitrary array under the window
  and then read at the array the region finds there.
-/
import proofs.«112078_j20358144983598_2_alg».proof.Proof.Gen.KernelIdeal.Frame
import Idealize.ShloMosaic.Lib.ValueIdx
import Idealize.ShloMosaic.Lib.Pipeline.Value

noncomputable section

namespace Cert.KernelIdeal.BlockReads

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-! ## The printed index maps, decided over the ten points -/

theorem moves0 : ∀ t : Fin cfg0.N, win0_0.index t (0 : Fin 2) = t.val ∧ win0_0.index t (1 : Fin 2) = 0 :=
  (by decide +kernel : ∀ t : Fin grid0.N, _)
theorem moves1 : ∀ t : Fin cfg0.N, win0_1.index t (0 : Fin 2) = t.val ∧ win0_1.index t (1 : Fin 2) = 0 :=
  (by decide +kernel : ∀ t : Fin grid0.N, _)
theorem moves2 : ∀ t : Fin cfg0.N, win0_2.index t (0 : Fin 2) = t.val ∧ win0_2.index t (1 : Fin 2) = 0 :=
  (by decide +kernel : ∀ t : Fin grid0.N, _)
theorem moves10 : ∀ t : Fin cfg0.N, win0_10.index t (0 : Fin 2) = t.val ∧ win0_10.index t (1 : Fin 2) = 0 :=
  (by decide +kernel : ∀ t : Fin grid0.N, _)
theorem stays3 : ∀ t : Fin cfg0.N, win0_3.index t (0 : Fin 2) = 0 ∧ win0_3.index t (1 : Fin 2) = 0 :=
  (by decide +kernel : ∀ t : Fin grid0.N, _)
theorem stays4 : ∀ t : Fin cfg0.N, win0_4.index t (0 : Fin 2) = 0 ∧ win0_4.index t (1 : Fin 2) = 0 :=
  (by decide +kernel : ∀ t : Fin grid0.N, _)
theorem stays5 : ∀ t : Fin cfg0.N, win0_5.index t (0 : Fin 2) = 0 ∧ win0_5.index t (1 : Fin 2) = 0 :=
  (by decide +kernel : ∀ t : Fin grid0.N, _)
theorem stays6 : ∀ t : Fin cfg0.N, win0_6.index t (0 : Fin 2) = 0 ∧ win0_6.index t (1 : Fin 2) = 0 :=
  (by decide +kernel : ∀ t : Fin grid0.N, _)
theorem stays7 : ∀ t : Fin cfg0.N, win0_7.index t (0 : Fin 2) = 0 ∧ win0_7.index t (1 : Fin 2) = 0 :=
  (by decide +kernel : ∀ t : Fin grid0.N, _)
theorem stays8 : ∀ t : Fin cfg0.N, win0_8.index t (0 : Fin 2) = 0 ∧ win0_8.index t (1 : Fin 2) = 0 :=
  (by decide +kernel : ∀ t : Fin grid0.N, _)
theorem stays9 : ∀ t : Fin cfg0.N, win0_9.index t (0 : Fin 2) = 0 ∧ win0_9.index t (1 : Fin 2) = 0 :=
  (by decide +kernel : ∀ t : Fin grid0.N, _)

/-! ## The three windows that move with the point -/

/-- Row `p` of point `t`'s block of the summed edge features is row `5000 t + p` of the array. -/
theorem sums_block_at_of (t : Fin cfg0.N) (A : S50000x64.Idx → EReal) (p : Fin 5000) (k : Fin 64) (r : Fin 50000) (hr : r.val = t.val * 5000 + p.val) :
    (((cfg0.win 0).blk t).view.read (Elt Ideal) A : FVec Ideal S5000x64 .f32) (ix2 p k) = A (ix2 r k) := by
  obtain ⟨e0, e1⟩ := moves0 t
  show A (((cfg0.win 0).blk t).view.emb (ix2 p k)) = _
  refine congrArg A (funext fun a => Fin.ext ?_)
  match a with
  | ⟨0, _⟩ => show win0_0.index t (0 : Fin 2) * 5000 + 1 * p.val = r.val; omega
  | ⟨1, _⟩ => show win0_0.index t (1 : Fin 2) * 64 + 1 * k.val = k.val; omega

theorem sums_block_at (c : Dev nD) (t : Fin cfg0.N) (p : Fin 5000) (k : Fin 64) (r : Fin 50000) (hr : r.val = t.val * 5000 + p.val) :
    (iblk m c 0 t : FVec Ideal S5000x64 .f32) (ix2 p k) = (V m c main_v4 : S50000x64.Idx → EReal) (ix2 r k) := by
  unfold iblk
  exact sums_block_at_of t (V m c main_v4) p k r hr

/-- Entry `p` of point `t`'s block of the count column is entry `5000 t + p` of the column. -/
theorem counts_block_at_of (t : Fin cfg0.N) (A : S50000x1.Idx → EReal) (p : Fin 5000) (r : Fin 50000) (hr : r.val = t.val * 5000 + p.val) :
    (((cfg0.win 1).blk t).view.read (Elt Ideal) A : FVec Ideal S5000x1 .f32) (ix2 p 0) = A (ix2 r 0) := by
  obtain ⟨e0, e1⟩ := moves1 t
  show A (((cfg0.win 1).blk t).view.emb (ix2 p 0)) = _
  refine congrArg A (funext fun a => Fin.ext ?_)
  match a with
  | ⟨0, _⟩ => show win0_1.index t (0 : Fin 2) * 5000 + 1 * p.val = r.val; omega
  | ⟨1, _⟩ => show win0_1.index t (1 : Fin 2) * 1 + 1 * 0 = 0; omega

theorem counts_block_at (c : Dev nD) (t : Fin cfg0.N) (p : Fin 5000) (r : Fin 50000) (hr : r.val = t.val * 5000 + p.val) :
    (iblk m c 1 t : FVec Ideal S5000x1 .f32) (ix2 p 0) = (V m c main_v9 : S50000x1.Idx → EReal) (ix2 r 0) := by
  unfold iblk
  exact counts_block_at_of t (V m c main_v9) p r hr

/-- Row `p` of point `t`'s block of the node features is row `5000 t + p` of the array. -/
theorem nodes_block_at_of (t : Fin cfg0.N) (A : S50000x64.Idx → EReal) (p : Fin 5000) (k : Fin 64) (r : Fin 50000) (hr : r.val = t.val * 5000 + p.val) :
    (((cfg0.win 2).blk t).view.read (Elt Ideal) A : FVec Ideal S5000x64 .f32) (ix2 p k) = A (ix2 r k) := by
  obtain ⟨e0, e1⟩ := moves2 t
  show A (((cfg0.win 2).blk t).view.emb (ix2 p k)) = _
  refine congrArg A (funext fun a => Fin.ext ?_)
  match a with
  | ⟨0, _⟩ => show win0_2.index t (0 : Fin 2) * 5000 + 1 * p.val = r.val; omega
  | ⟨1, _⟩ => show win0_2.index t (1 : Fin 2) * 64 + 1 * k.val = k.val; omega

theorem nodes_block_at (c : Dev nD) (t : Fin cfg0.N) (p : Fin 5000) (k : Fin 64) (r : Fin 50000) (hr : r.val = t.val * 5000 + p.val) :
    (iblk m c 2 t : FVec Ideal S5000x64 .f32) (ix2 p k) = (V m c main_arg0 : S50000x64.Idx → EReal) (ix2 r k) := by
  unfold iblk
  exact nodes_block_at_of t (V m c main_arg0) p k r hr

/-! ## The windows that hold their whole arrays at every point -/

/-- A [64, 64] window's block at `(k, l)` is its array at `(k, l)`. -/
theorem square3_at_of (t : Fin cfg0.N) (A : S64x64.Idx → EReal) (k l : Fin 64) :
    (((cfg0.win 3).blk t).view.read (Elt Ideal) A : FVec Ideal S64x64 .f32) (ix2 k l) = A (ix2 k l) := by
  obtain ⟨e0, e1⟩ := stays3 t
  show A (((cfg0.win 3).blk t).view.emb (ix2 k l)) = _
  refine congrArg A (funext fun a => Fin.ext ?_)
  match a with
  | ⟨0, _⟩ => show win0_3.index t (0 : Fin 2) * 64 + 1 * k.val = k.val; omega
  | ⟨1, _⟩ => show win0_3.index t (1 : Fin 2) * 64 + 1 * l.val = l.val; omega

theorem square3_at (c : Dev nD) (t : Fin cfg0.N) (k l : Fin 64) :
    (iblk m c 3 t : FVec Ideal S64x64 .f32) (ix2 k l) = (V m c main_v10 : S64x64.Idx → EReal) (ix2 k l) := by
  unfold iblk
  exact square3_at_of t (V m c main_v10) k l

theorem square4_at_of (t : Fin cfg0.N) (A : S64x64.Idx → EReal) (k l : Fin 64) :
    (((cfg0.win 4).blk t).view.read (Elt Ideal) A : FVec Ideal S64x64 .f32) (ix2 k l) = A (ix2 k l) := by
  obtain ⟨e0, e1⟩ := stays4 t
  show A (((cfg0.win 4).blk t).view.emb (ix2 k l)) = _
  refine congrArg A (funext fun a => Fin.ext ?_)
  match a with
  | ⟨0, _⟩ => show win0_4.index t (0 : Fin 2) * 64 + 1 * k.val = k.val; omega
  | ⟨1, _⟩ => show win0_4.index t (1 : Fin 2) * 64 + 1 * l.val = l.val; omega

theorem square4_at (c : Dev nD) (t : Fin cfg0.N) (k l : Fin 64) :
    (iblk m c 4 t : FVec Ideal S64x64 .f32) (ix2 k l) = (V m c main_v11 : S64x64.Idx → EReal) (ix2 k l) := by
  unfold iblk
  exact square4_at_of t (V m c main_v11) k l

theorem square6_at_of (t : Fin cfg0.N) (A : S64x64.Idx → EReal) (k l : Fin 64) :
    (((cfg0.win 6).blk t).view.read (Elt Ideal) A : FVec Ideal S64x64 .f32) (ix2 k l) = A (ix2 k l) := by
  obtain ⟨e0, e1⟩ := stays6 t
  show A (((cfg0.win 6).blk t).view.emb (ix2 k l)) = _
  refine congrArg A (funext fun a => Fin.ext ?_)
  match a with
  | ⟨0, _⟩ => show win0_6.index t (0 : Fin 2) * 64 + 1 * k.val = k.val; omega
  | ⟨1, _⟩ => show win0_6.index t (1 : Fin 2) * 64 + 1 * l.val = l.val; omega

theorem square6_at (c : Dev nD) (t : Fin cfg0.N) (k l : Fin 64) :
    (iblk m c 6 t : FVec Ideal S64x64 .f32) (ix2 k l) = (V m c main_arg5 : S64x64.Idx → EReal) (ix2 k l) := by
  unfold iblk
  exact square6_at_of t (V m c main_arg5) k l

theorem square8_at_of (t : Fin cfg0.N) (A : S64x64.Idx → EReal) (k l : Fin 64) :
    (((cfg0.win 8).blk t).view.read (Elt Ideal) A : FVec Ideal S64x64 .f32) (ix2 k l) = A (ix2 k l) := by
  obtain ⟨e0, e1⟩ := stays8 t
  show A (((cfg0.win 8).blk t).view.emb (ix2 k l)) = _
  refine congrArg A (funext fun a => Fin.ext ?_)
  match a with
  | ⟨0, _⟩ => show win0_8.index t (0 : Fin 2) * 64 + 1 * k.val = k.val; omega
  | ⟨1, _⟩ => show win0_8.index t (1 : Fin 2) * 64 + 1 * l.val = l.val; omega

theorem square8_at (c : Dev nD) (t : Fin cfg0.N) (k l : Fin 64) :
    (iblk m c 8 t : FVec Ideal S64x64 .f32) (ix2 k l) = (V m c main_arg7 : S64x64.Idx → EReal) (ix2 k l) := by
  unfold iblk
  exact square8_at_of t (V m c main_arg7) k l

/-- A [1, 64] window's block at `(0, l)` is its array at `(0, l)`. -/
theorem bias5_at_of (t : Fin cfg0.N) (A : S1x64.Idx → EReal) (l : Fin 64) :
    (((cfg0.win 5).blk t).view.read (Elt Ideal) A : FVec Ideal S1x64 .f32) (ix2 0 l) = A (ix2 0 l) := by
  obtain ⟨e0, e1⟩ := stays5 t
  show A (((cfg0.win 5).blk t).view.emb (ix2 0 l)) = _
  refine congrArg A (funext fun a => Fin.ext ?_)
  match a with
  | ⟨0, _⟩ => show win0_5.index t (0 : Fin 2) * 1 + 1 * 0 = 0; omega
  | ⟨1, _⟩ => show win0_5.index t (1 : Fin 2) * 64 + 1 * l.val = l.val; omega

theorem bias5_at (c : Dev nD) (t : Fin cfg0.N) (l : Fin 64) :
    (iblk m c 5 t : FVec Ideal S1x64 .f32) (ix2 0 l) = (V m c main_v12 : S1x64.Idx → EReal) (ix2 0 l) := by
  unfold iblk
  exact bias5_at_of t (V m c main_v12) l

theorem bias7_at_of (t : Fin cfg0.N) (A : S1x64.Idx → EReal) (l : Fin 64) :
    (((cfg0.win 7).blk t).view.read (Elt Ideal) A : FVec Ideal S1x64 .f32) (ix2 0 l) = A (ix2 0 l) := by
  obtain ⟨e0, e1⟩ := stays7 t
  show A (((cfg0.win 7).blk t).view.emb (ix2 0 l)) = _
  refine congrArg A (funext fun a => Fin.ext ?_)
  match a with
  | ⟨0, _⟩ => show win0_7.index t (0 : Fin 2) * 1 + 1 * 0 = 0; omega
  | ⟨1, _⟩ => show win0_7.index t (1 : Fin 2) * 64 + 1 * l.val = l.val; omega

theorem bias7_at (c : Dev nD) (t : Fin cfg0.N) (l : Fin 64) :
    (iblk m c 7 t : FVec Ideal S1x64 .f32) (ix2 0 l) = (V m c main_v13 : S1x64.Idx → EReal) (ix2 0 l) := by
  unfold iblk
  exact bias7_at_of t (V m c main_v13) l

theorem bias9_at_of (t : Fin cfg0.N) (A : S1x64.Idx → EReal) (l : Fin 64) :
    (((cfg0.win 9).blk t).view.read (Elt Ideal) A : FVec Ideal S1x64 .f32) (ix2 0 l) = A (ix2 0 l) := by
  obtain ⟨e0, e1⟩ := stays9 t
  show A (((cfg0.win 9).blk t).view.emb (ix2 0 l)) = _
  refine congrArg A (funext fun a => Fin.ext ?_)
  match a with
  | ⟨0, _⟩ => show win0_9.index t (0 : Fin 2) * 1 + 1 * 0 = 0; omega
  | ⟨1, _⟩ => show win0_9.index t (1 : Fin 2) * 64 + 1 * l.val = l.val; omega

theorem bias9_at (c : Dev nD) (t : Fin cfg0.N) (l : Fin 64) :
    (iblk m c 9 t : FVec Ideal S1x64 .f32) (ix2 0 l) = (V m c main_v14 : S1x64.Idx → EReal) (ix2 0 l) := by
  unfold iblk
  exact bias9_at_of t (V m c main_v14) l

end Cert.KernelIdeal.BlockReads

end
-- ==== Proof.KernelArray.lean ====
/-
  From what each grid point writes back to the whole result array.

  The grid has ten points; point `t` handles nodes `5000 t … 5000 t + 4999`.  Its blocks of the summed edge features,
  of the count column and of the node features are rows `5000 t + p` of those arrays; the weight and bias windows
  are the whole arrays at every point (Proof/BlockReads.lean).  So entry `(p, q)` of what point `t` writes back is
  the network at node `5000 t + p`, feature `q` (`written_at`), which is block `t` of ONE function of the launch
  arrays, `result` (`block_of`, `flushed_eq`).  Row `r` lies in the block of point `r / 5000`, so the ten blocks cover the array, and after the run
  the result array is `result` (`final`, `run`).
-/
import proofs.«112078_j20358144983598_2_alg».proof.Proof.Gen.KernelIdeal.Value
import proofs.«112078_j20358144983598_2_alg».proof.Proof.BlockRows
import proofs.«112078_j20358144983598_2_alg».proof.Proof.KernelHost
import proofs.«112078_j20358144983598_2_alg».proof.Proof.BlockReads

noncomputable section

namespace Cert.KernelIdeal.Whole

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx Cert.RowMlp Cert.KernelIdeal.Host Cert.KernelIdeal.BlockRows Cert.KernelIdeal.BlockReads

variable (m : (ℓ : Loc nD τ sig) → Buf (Elt Ideal) ℓ) (ρ : Dev nD → PrngReg)

theorem hz : (![0, 0] : Fin 2 → Nat) = fun _ => 0 := funext fun a => by fin_cases a <;> rfl

/-- The result array as one function of the launch arrays: entry `(r, j)` is the network at node `r`, feature `j`. -/
def result (c : Dev nD) : S50000x64.Idx → EReal := fun i =>
  net (sums (m ((c : Thread nD τ).loc main_arg1)) (m ((c : Thread nD τ).loc main_arg2))) (counts (m ((c : Thread nD τ).loc main_arg1)))
    (m ((c : Thread nD τ).loc main_arg0)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) ⟨(i 0).val, (i 0).isLt⟩ ⟨(i 1).val, (i 1).isLt⟩

/-- `result` at entry `(r, j)`. -/
theorem result_at (c : Dev nD) (r : Fin 50000) (j : Fin 64) :
    result m c (ix2 r j)
      = net (sums (m ((c : Thread nD τ).loc main_arg1)) (m ((c : Thread nD τ).loc main_arg2))) (counts (m ((c : Thread nD τ).loc main_arg1)))
          (m ((c : Thread nD τ).loc main_arg0)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) r j := by
  unfold result
  rfl

/-! ## What a point writes back -/

/-- Entry `(p, q)` of the body's result at point `t` is the network at node `5000 t + p`, feature `q`. -/
theorem written_at (c : Dev nD) (t : Fin cfg0.N) (p : Fin 5000) (q : Fin 64) (r : Fin 50000) (hr : r.val = t.val * 5000 + p.val) :
    k0_pay1 (F := Ideal) (k0_pay2 (iblk m c 8 t)) (k0_pay3 (iblk m c 0 t) (iblk m c 1 t) (iblk m c 2 t) (iblk m c 3 t) (iblk m c 4 t) (iblk m c 6 t) (iblk m c 5 t) (iblk m c 7 t)) (iblk m c 9 t) (ix2 p q)
      = net (sums (m ((c : Thread nD τ).loc main_arg1)) (m ((c : Thread nD τ).loc main_arg2))) (counts (m ((c : Thread nD τ).loc main_arg1)))
          (m ((c : Thread nD τ).loc main_arg0)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) r q := by
  refine (block_row (iblk m c 0 t) (iblk m c 1 t) (iblk m c 2 t) (iblk m c 3 t) (iblk m c 4 t) (iblk m c 6 t) (iblk m c 8 t) (iblk m c 5 t) (iblk m c 7 t) (iblk m c 9 t) p q).trans ?_
  unfold net
  refine row_congr (funext fun k => ?_) ?_ (funext fun k => ?_) (funext fun k => funext fun l => ?_) (funext fun k => funext fun l => ?_)
    (funext fun k => funext fun l => ?_) (funext fun k => funext fun l => ?_) (funext fun l => ?_) (funext fun l => ?_) (funext fun l => ?_) rfl
  · exact (sums_block_at m c t p k r hr).trans (congrFun (found_sums m c) (ix2 r k))
  · exact (counts_block_at m c t p r hr).trans (found_counts_at m c r)
  · exact (nodes_block_at m c t p k r hr).trans (congrFun (V_main_arg0 m c) (ix2 r k))
  · exact (square3_at m c t k l).trans (found_upper_at m c k l)
  · exact (square4_at m c t k l).trans (found_lower_at m c k l)
  · exact (square6_at m c t k l).trans (congrFun (V_main_arg5 m c) (ix2 k l))
  · exact (square8_at m c t k l).trans (congrFun (V_main_arg7 m c) (ix2 k l))
  · exact (bias5_at m c t l).trans (found_bias0_at m c l)
  · exact (bias7_at m c t l).trans (found_bias1_at m c l)
  · exact (bias9_at m c t l).trans (found_bias2_at m c l)

/-- Point `t`'s block of the result window, for an arbitrary body result `X` and an arbitrary function `G` of the
    array's indices: if entry `(p, q)` of `X` is `G` at row `5000 t + p`, column `q`, then `X` is block `t` of `G`. -/
theorem block_of (t : Fin cfg0.N) (X : S5000x64.Idx → EReal) (G : S50000x64.Idx → EReal)
    (h : ∀ (p : Fin 5000) (q : Fin 64) (r : Fin 50000), r.val = t.val * 5000 + p.val → X (ix2 p q) = G (ix2 r q)) :
    (cfg0.win 10).cut (grid0.coords t) X = ((cfg0.win 10).blk t).view.read (Elt Ideal) G := by
  obtain ⟨e0, e1⟩ := moves10 t
  have hN : cfg0.N = 10 := N_0
  funext j
  obtain ⟨p, q, rfl⟩ : ∃ (p : Fin 5000) (q : Fin 64), j = ix2 p q := ⟨j 0, j 1, eq_ix2 j⟩
  show X (ix2 p q) = G (((cfg0.win 10).blk t).view.emb (ix2 p q))
  refine (h p q ⟨t.val * 5000 + p.val, by have := t.isLt; have := p.isLt; omega⟩ rfl).trans (congrArg G (funext fun a => Fin.ext ?_))
  match a with
  | ⟨0, _⟩ => show t.val * 5000 + p.val = win0_10.index t (0 : Fin 2) * 5000 + 1 * p.val; omega
  | ⟨1, _⟩ => show q.val = win0_10.index t (1 : Fin 2) * 64 + 1 * q.val; omega

/-- What point `t` writes back is block `t` of `result`. -/
theorem flushed_eq (c : Dev nD) (t : Fin cfg0.N) :
    (dats m 0 c).flushed 10 t = ((cfg0.win 10).blk t).view.read (Elt Ideal) (result m c) := by
  rw [flushed10]
  unfold out0_10
  rw [View.canon_unit_zero hz]
  simp only [View.ld_unit_zero (S := S5000x64) hz, View.ld_unit_zero (S := S5000x1) hz, View.ld_unit_zero (S := S64x64) hz, View.ld_unit_zero (S := S1x64) hz]
  exact block_of t _ (result m c) fun p q r hr => (written_at m c t p q r hr).trans (result_at m c r q).symm

/-! ## The blocks cover the array -/

/-- An index of the array is in point `t`'s block iff each coordinate is in the block's range on its axis. -/
theorem mem_blk (t : Fin cfg0.N) (i : S50000x64.Idx) :
    i ∈ ((cfg0.win 10).blk t).view.set ↔ ∀ a : Fin 2, win0_10.index t a * S5000x64.size a ≤ (i a).val ∧ (i a).val < win0_10.index t a * S5000x64.size a + S5000x64.size a := by
  show i ∈ ((View.whole main_v15).slice (win0_10.rect t)).set ↔ _
  rw [View.set_slice_whole, Rect.mem_set_unit]
  exact Iff.rfl

/-- Row `r` lies in the block of point `r / 5000`. -/
theorem cover (i : S50000x64.Idx) : ∃ t : Fin cfg0.N, (cfg0.win 10).flush t = true ∧ i ∈ ((cfg0.win 10).blk t).view.set := by
  have hi0 : (i 0).val < 50000 := (i 0).isLt
  have hi1 : (i 1).val < 64 := (i 1).isLt
  have hN : cfg0.N = 10 := N_0
  have key : ∀ t : Fin cfg0.N, t.val = (i 0).val / 5000 → i ∈ ((cfg0.win 10).blk t).view.set := by
    intro t ht
    obtain ⟨e0, e1⟩ := moves10 t
    rw [mem_blk]
    intro a
    match a with
    | ⟨0, _⟩ => show win0_10.index t (0 : Fin 2) * 5000 ≤ (i 0).val ∧ (i 0).val < win0_10.index t (0 : Fin 2) * 5000 + 5000; omega
    | ⟨1, _⟩ => show win0_10.index t (1 : Fin 2) * 64 ≤ (i 1).val ∧ (i 1).val < win0_10.index t (1 : Fin 2) * 64 + 64; omega
  exact ⟨⟨(i 0).val / 5000, by rw [hN]; omega⟩, flush0_10 _, key _ rfl⟩

/-! ## The array after the run -/

theorem final (c : Dev nD) : (dats m 0 c).arrAt 10 cfg0.N = result m c :=
  (dats m 0 c).arrAt_eq_of_cover 10 (result m c) (fun t _ => flushed_eq m c t) cover

/-- Every weakly fair execution of the idealized kernel ends with the result array at `result`, the arguments unchanged. -/
theorem run : θ_run defs (onTc (τ := τ) (main (F := Ideal))) ⟨m, fun _ => 0, ρ⟩ fun r => ∀ c : Dev nD,
      r.2.mem ((c : Thread nD τ).loc main_v15) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (run_blocks m ρ)

end Cert.KernelIdeal.Whole

end
-- ==== Proof.RefRows.lean ====
/-
  The reference, read at an entry of its [50000, 64] result.

  The reference divides the summed edge features by the edge counts (raised to at least one, spread to a column and
  then across the 64 features), joins the quotient and the node features side by side into a [50000, 128] array,
  and applies three dense layers, the first two followed by a maximum with zero.  At entry `(r, j)` every stage reads
  row `r` of the stage before: a matrix product is a sum over the contracted axis; columns 0–63 of the joined array are
  the quotient and columns 64–127 the node features, so the first product's sum over 128 splits into the two sums
  over 64 of the node function's first layer (`RowMlp.sum_halves`).  Hence the result at `(r, j)` is `RowMlp.net` of
  the summed edge features, the edge counts and the arguments: `result_at`.  The two scatter-adds stay unopened.
-/
import proofs.«112078_j20358144983598_2_alg».proof.Proof.Gen.ReferenceIdeal.Read
import proofs.«112078_j20358144983598_2_alg».proof.Proof.RowMlp

noncomputable section

namespace Cert.ReferenceIdeal.RefRows

open Cert.ReferenceIdeal Cert.ReferenceIdeal.Gen Cert.ReferenceIdeal.Read Idealize.ShloMosaic Idealize.ShloMosaic.ValueIdx Cert.RowMlp

variable (x0 : (⟨S50000x64, .f32⟩ : BufTy).Contents (Elt Ideal)) (x1 : (⟨S2x800000, .i32⟩ : BufTy).Contents (Elt Ideal))
  (x2 : (⟨S800000x64, .f32⟩ : BufTy).Contents (Elt Ideal)) (x3 : (⟨S128x64, .f32⟩ : BufTy).Contents (Elt Ideal))
  (x4 : (⟨S64, .f32⟩ : BufTy).Contents (Elt Ideal)) (x5 : (⟨S64x64, .f32⟩ : BufTy).Contents (Elt Ideal))
  (x6 : (⟨S64, .f32⟩ : BufTy).Contents (Elt Ideal)) (x7 : (⟨S64x64, .f32⟩ : BufTy).Contents (Elt Ideal))
  (x8 : (⟨S64, .f32⟩ : BufTy).Contents (Elt Ideal))

/-! ## The mean edge features -/

/-- The quotient at `(r, k)`: the summed feature over the count of node `r`, raised to at least one. -/
theorem quotient_at (r : Fin 50000) (k : Fin 64) :
    val_main_v13 (F := Ideal) x1 x2 (ix2 r k) = mean (fun k => val_main_v4 (F := Ideal) x1 x2 (ix2 r k)) (val_main_v8 (F := Ideal) x1 (ix1 r)) k := by
  rw [val_main_v13_apply, val_main_v12_apply, val_main_v11_apply, val_main_v10_apply, val_main_v9_apply, val_main_cst_2_apply]
  have e : idx_main_v11 (idx_main_v12 (ix2 r k)) = ix1 r := funext fun a => Fin.ext (by match a with | ⟨0, _⟩ => rfl)
  rw [e]
  rfl

/-! ## The joined array -/

/-- Columns 0–63 of the joined array are the quotient. -/
theorem joined_left_at (r : Fin 50000) (k : Fin 64) :
    val_main_v14 (F := Ideal) x0 x1 x2 (ix2 r (⟨k.val, by have := k.isLt; omega⟩ : Fin 128)) = val_main_v13 (F := Ideal) x1 x2 (ix2 r k) := by
  unfold val_main_v14
  exact concatenate_pair_apply_left (1 : Fin S50000x128.rank) _ _ Facts₀.concatenates_S50000x64_S50000x64_S50000x128_d1
    (ix2 r (⟨k.val, by have := k.isLt; omega⟩ : Fin 128)) rfl (ix2 r k) fun b => match b with
      | ⟨0, _⟩ => rfl
      | ⟨1, _⟩ => rfl

/-- Columns 64–127 of the joined array are the node features. -/
theorem joined_right_at (r : Fin 50000) (k : Fin 64) :
    val_main_v14 (F := Ideal) x0 x1 x2 (ix2 r (⟨64 + k.val, by have := k.isLt; omega⟩ : Fin 128)) = x0 (ix2 r k) := by
  unfold val_main_v14
  exact concatenate_pair_apply_right (1 : Fin S50000x128.rank) _ _ Facts₀.concatenates_S50000x64_S50000x64_S50000x128_d1
    (ix2 r (⟨64 + k.val, by have := k.isLt; omega⟩ : Fin 128)) rfl rfl (ix2 r k)
    (fun b hb => match b, hb with
      | ⟨0, _⟩, _ => rfl
      | ⟨1, _⟩, hb => absurd rfl hb)
    (by show k.val + 64 = 64 + k.val; omega)

/-! ## The three layers -/

/-- The operand entries of a product entry `(r, l)` at contraction position `k`, and the bias entry it takes. -/
theorem lidx15 (r : Fin 50000) (l : Fin 64) (k : Fin 128) : lidx_main_v15 (ix2 r l) k = ix2 r k :=
  funext fun a => Fin.ext (by match a with | ⟨0, _⟩ => rfl | ⟨1, _⟩ => rfl)
theorem ridx15 (r : Fin 50000) (l : Fin 64) (k : Fin 128) : ridx_main_v15 (ix2 r l) k = ix2 k l :=
  funext fun a => Fin.ext (by match a with | ⟨0, _⟩ => rfl | ⟨1, _⟩ => rfl)
theorem lidx20 (r : Fin 50000) (l : Fin 64) (k : Fin 64) : lidx_main_v20 (ix2 r l) k = ix2 r k :=
  funext fun a => Fin.ext (by match a with | ⟨0, _⟩ => rfl | ⟨1, _⟩ => rfl)
theorem ridx20 (r : Fin 50000) (l : Fin 64) (k : Fin 64) : ridx_main_v20 (ix2 r l) k = ix2 k l :=
  funext fun a => Fin.ext (by match a with | ⟨0, _⟩ => rfl | ⟨1, _⟩ => rfl)
theorem lidx25 (r : Fin 50000) (l : Fin 64) (k : Fin 64) : lidx_main_v25 (ix2 r l) k = ix2 r k :=
  funext fun a => Fin.ext (by match a with | ⟨0, _⟩ => rfl | ⟨1, _⟩ => rfl)
theorem ridx25 (r : Fin 50000) (l : Fin 64) (k : Fin 64) : ridx_main_v25 (ix2 r l) k = ix2 k l :=
  funext fun a => Fin.ext (by match a with | ⟨0, _⟩ => rfl | ⟨1, _⟩ => rfl)
theorem bidx17 (r : Fin 50000) (l : Fin 64) : idx_main_v16 (idx_main_v17 (ix2 r l)) = ix1 l :=
  funext fun a => Fin.ext (by match a with | ⟨0, _⟩ => rfl)
theorem bidx22 (r : Fin 50000) (l : Fin 64) : idx_main_v21 (idx_main_v22 (ix2 r l)) = ix1 l :=
  funext fun a => Fin.ext (by match a with | ⟨0, _⟩ => rfl)
theorem bidx27 (r : Fin 50000) (l : Fin 64) : idx_main_v26 (idx_main_v27 (ix2 r l)) = ix1 l :=
  funext fun a => Fin.ext (by match a with | ⟨0, _⟩ => rfl)

/-- The first layer before its clamp, at `(r, l)`: the node function's first layer of node `r`. -/
theorem layer0_at (r : Fin 50000) (l : Fin 64) :
    val_main_v18 (F := Ideal) x0 x1 x2 x3 x4 (ix2 r l)
      = first (mean (fun k => val_main_v4 (F := Ideal) x1 x2 (ix2 r k)) (val_main_v8 (F := Ideal) x1 (ix1 r))) (fun k => x0 (ix2 r k))
          (fun k l => x3 (ix2 (⟨k.val, by have := k.isLt; omega⟩ : Fin 128) l))
          (fun k l => x3 (ix2 (⟨64 + k.val, by have := k.isLt; omega⟩ : Fin 128) l)) (fun l => x4 (ix1 l)) l := by
  rw [val_main_v18_apply, val_main_v15_apply, val_main_v17_apply, val_main_v16_apply, bidx17, sum_halves]
  refine congrArg₂ (· + ·) (congrArg₂ (· + ·) (Finset.sum_congr rfl fun k _ => ?_) (Finset.sum_congr rfl fun k _ => ?_)) rfl
  · rw [lidx15, ridx15, joined_left_at, quotient_at]
  · rw [lidx15, ridx15, joined_right_at]

/-- The first layer after its clamp. -/
theorem hidden0_at (r : Fin 50000) (l : Fin 64) :
    val_main_v19 (F := Ideal) x0 x1 x2 x3 x4 (ix2 r l) = max (val_main_v18 (F := Ideal) x0 x1 x2 x3 x4 (ix2 r l)) zero := by
  rw [val_main_v19_apply, val_main_call0_v0_apply, val_main_call0_cst_apply]
  rfl

/-- The second layer before its clamp, at `(r, l)`. -/
theorem layer1_at (r : Fin 50000) (l : Fin 64) :
    val_main_v23 (F := Ideal) x0 x1 x2 x3 x4 x5 x6 (ix2 r l)
      = dense (fun k => val_main_v19 (F := Ideal) x0 x1 x2 x3 x4 (ix2 r k)) (fun k l => x5 (ix2 k l)) (fun l => x6 (ix1 l)) l := by
  rw [val_main_v23_apply, val_main_v20_apply, val_main_v22_apply, val_main_v21_apply, bidx22]
  refine congrArg₂ (· + ·) (Finset.sum_congr rfl fun k _ => ?_) rfl
  rw [lidx20, ridx20]

/-- The second layer after its clamp. -/
theorem hidden1_at (r : Fin 50000) (l : Fin 64) :
    val_main_v24 (F := Ideal) x0 x1 x2 x3 x4 x5 x6 (ix2 r l) = max (val_main_v23 (F := Ideal) x0 x1 x2 x3 x4 x5 x6 (ix2 r l)) zero := by
  rw [val_main_v24_apply, val_main_call1_v0_apply, val_main_call1_cst_apply]
  rfl

/-- The third layer, at `(r, j)`. -/
theorem layer2_at (r : Fin 50000) (j : Fin 64) :
    val_main_v28 (F := Ideal) x0 x1 x2 x3 x4 x5 x6 x7 x8 (ix2 r j)
      = dense (fun k => val_main_v24 (F := Ideal) x0 x1 x2 x3 x4 x5 x6 (ix2 r k)) (fun k l => x7 (ix2 k l)) (fun l => x8 (ix1 l)) j := by
  rw [val_main_v28_apply, val_main_v25_apply, val_main_v27_apply, val_main_v26_apply, bidx27]
  refine congrArg₂ (· + ·) (Finset.sum_congr rfl fun k _ => ?_) rfl
  rw [lidx25, ridx25]

/-! ## The result -/

/-- The reference's result at `(r, j)` is the network at node `r`, feature `j`. -/
theorem result_at (r : Fin 50000) (j : Fin 64) :
    val_main_v28 (F := Ideal) x0 x1 x2 x3 x4 x5 x6 x7 x8 (ix2 r j)
      = net (val_main_v4 (F := Ideal) x1 x2) (val_main_v8 (F := Ideal) x1) x0 x3 x4 x5 x6 x7 x8 r j := by
  rw [layer2_at]
  unfold net row
  refine congrArg (fun f => dense f (fun k l => x7 (ix2 k l)) (fun l => x8 (ix1 l)) j) (funext fun l => ?_)
  rw [hidden1_at, layer1_at]
  refine congrArg (max · zero) ?_
  refine congrArg (fun f => dense f (fun k l => x5 (ix2 k l)) (fun l => x6 (ix1 l)) l) (funext fun k => ?_)
  rw [hidden0_at, layer0_at]

end Cert.ReferenceIdeal.RefRows

end
-- ==== Proof.Bridge.lean ====
/-
  The two programs prepare the same sums.

  Both programs sum the edge features, and the edge ones, by receiving node with the same two scatter-adds into
  zeros, of the same row of the edge index.  The two printed terms differ only in which program's record of the
  dimension numbers and shape facts they cite, so they are one term; the scatter-adds are never opened.
-/
import proofs.«112078_j20358144983598_2_alg».proof.Proof.KernelHost
import proofs.«112078_j20358144983598_2_alg».proof.Proof.Gen.ReferenceIdeal.Read

noncomputable section

namespace Cert.Bridge

open Idealize.ShloMosaic

/-- The kernel program's summed edge features are the reference's. -/
theorem sums_eq (x1 : (⟨Cert.KernelIdeal.S2x800000, .i32⟩ : BufTy).Contents (Elt Ideal))
    (x2 : (⟨Cert.KernelIdeal.S800000x64, .f32⟩ : BufTy).Contents (Elt Ideal)) :
    Cert.KernelIdeal.Host.sums x1 x2 = Cert.ReferenceIdeal.Read.val_main_v4 (F := Ideal) x1 x2 := rfl

/-- The kernel program's edge counts are the reference's. -/
theorem counts_eq (x1 : (⟨Cert.KernelIdeal.S2x800000, .i32⟩ : BufTy).Contents (Elt Ideal)) :
    Cert.KernelIdeal.Host.counts x1 = Cert.ReferenceIdeal.Read.val_main_v8 (F := Ideal) x1 := rfl

end Cert.Bridge

end
-- ==== Proof.lean ====
/-
  A message-passing step on a graph of 50000 nodes and 800000 edges, at exact extended-real arithmetic.

  Both programs first sum, for every node, the 64 features of the edges it receives and the number of such edges
  (two scatter-adds, identical in the two programs and never opened), and divide the sums by the counts raised to at
  least one.  The reference then joins this mean with the node's own 64 features into 128 and applies three dense
  layers 128 → 64 → 64 → 64, the first two clamped at zero.  The kernel never joins: it multiplies the mean by rows
  0–63 and the node's features by rows 64–127 of the first weight matrix and adds the two products, ten blocks of
  5000 nodes at a time, rounding operands to a narrower float format on the way into each product — the identity at
  exact arithmetic.

  A node's output depends on that node's rows alone (Proof/RowMlp.lean: `row`, `net`).  The kernel's body at an entry
  of its block is that node function (Proof/BlockRows.lean), each window's block is read off its array row by row
  (Proof/BlockReads.lean), the ten blocks written back tile the result array (Proof/KernelArray.lean, over the
  host-prepared arrays of Proof/KernelHost.lean), and the reference at an entry is
  the same node function once its sum over 128 joined columns is split into the two sums over 64
  (Proof/RefRows.lean).  Splitting a finite sum needs only that addition is commutative and associative, so the
  equality holds for every input, finite or not, and the precondition is never opened.
-/
import proofs.«112078_j20358144983598_2_alg».proof.Defs
import proofs.«112078_j20358144983598_2_alg».proof.Proof.Gen.Kernel
import proofs.«112078_j20358144983598_2_alg».proof.Proof.Gen.Kernel.Skeleton
import proofs.«112078_j20358144983598_2_alg».proof.Proof.Gen.Kernel.Launch
import proofs.«112078_j20358144983598_2_alg».proof.Proof.Gen.Kernel.Points
import proofs.«112078_j20358144983598_2_alg».proof.Proof.Gen.Kernel.Frame
import proofs.«112078_j20358144983598_2_alg».proof.Proof.Gen.KernelIdeal
import proofs.«112078_j20358144983598_2_alg».proof.Proof.Gen.KernelIdeal.Skeleton
import proofs.«112078_j20358144983598_2_alg».proof.Proof.Gen.KernelIdeal.Launch
import proofs.«112078_j20358144983598_2_alg».proof.Proof.Gen.KernelIdeal.Points
import proofs.«112078_j20358144983598_2_alg».proof.Proof.Gen.KernelIdeal.Frame
import proofs.«112078_j20358144983598_2_alg».proof.Proof.Gen.ReferenceIdeal
import proofs.«112078_j20358144983598_2_alg».proof.Proof.Gen.Pre_finite_inputs
import proofs.«112078_j20358144983598_2_alg».proof.Proof.Gen.KernelIdeal.Value
import proofs.«112078_j20358144983598_2_alg».proof.Proof.Gen.ReferenceIdeal.Run
import proofs.«112078_j20358144983598_2_alg».proof.Proof.Gen.ReferenceIdeal.Read
import proofs.«112078_j20358144983598_2_alg».proof.Proof.KernelArray
import proofs.«112078_j20358144983598_2_alg».proof.Proof.RefRows
import proofs.«112078_j20358144983598_2_alg».proof.Proof.Bridge
import Idealize.ShloMosaic.Adequacy
import Idealize.ShloMosaic.Init

noncomputable section

namespace Cert.Proof

open Idealize.ShloMosaic Idealize.SL.Sem Idealize.ShloMosaic.ValueIdx

/-- The word-level kernel runs and leaves its arguments unchanged. -/
theorem frame_kernel : Cert.frame_Kernel := fun m ρ _ => Cert.Kernel.Gen.frame m ρ

/-- So does the kernel at exact arithmetic. -/
theorem frame_ideal : Cert.frame_KernelIdeal := fun m ρ _ => Cert.KernelIdeal.Gen.frame m ρ

/-- The reference runs and leaves its arguments unchanged: its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the result array at the network of every node:
    the kernel by its ten blocks, the reference entry by entry. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Read.val_main_v28_eq, h0, h1, h2, h3, h4, h5, h6, h7, h8]
  funext i
  obtain ⟨r, j, rfl⟩ : ∃ (r : Fin 50000) (j : Fin 64), i = ix2 r j := ⟨i 0, i 1, eq_ix2 i⟩
  rw [Cert.ReferenceIdeal.RefRows.result_at, ← Cert.Bridge.sums_eq, ← Cert.Bridge.counts_eq]
  rfl

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
